-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, stated once over the extended reals.

  For a batch of visible vectors `X` (8192 × 4096), weights `W` (4096 × 4096) and a hidden bias `B` (4096), the
  hidden probabilities are `σ (∑ₖ X[r,k] · W[k,c] + B[c])` with `σ x = 1 / (1 + e⁻ˣ)`.

  The contraction is written as a sum over an initial segment of the naturals (`psum … n`: the first `n` products), so
  that a sum taken in four consecutive runs of 1024 products is the same sum by `Finset.sum_range_add` alone: addition
  of extended reals is commutative and associative, so no finiteness of the entries is needed for the regrouping.
-/
import Idealize.ShloMosaic.PureOps.Ideal
import Idealize.ShloMosaic.Lib.ValueIdx

noncomputable section

namespace Cert.Rbm

open Idealize.ShloMosaic Idealize.ShloMosaic.ValueIdx

/-- The visible batch, the weights, the bias and the hidden probabilities, as arrays of extended reals. -/
abbrev Vis : Type := FVec Ideal ⟨2, ![8192, 4096]⟩ .f32
abbrev Wts : Type := FVec Ideal ⟨2, ![4096, 4096]⟩ .f32
abbrev Bias : Type := FVec Ideal ⟨1, ![4096]⟩ .f32
abbrev Hid : Type := FVec Ideal ⟨2, ![8192, 4096]⟩ .f32

/-- The `k`-th product of entry `(r, c)` of `X · W`; zero past the contraction range. -/
def term (X : Vis) (W : Wts) (r : Fin 8192) (c : Fin 4096) (k : ℕ) : EReal :=
  if h : k < 4096 then X (ix2 r ⟨k, h⟩) * W (ix2 ⟨k, h⟩ c) else 0

/-- The sum of the first `n` products of entry `(r, c)`. -/
def psum (X : Vis) (W : Wts) (r : Fin 8192) (c : Fin 4096) (n : ℕ) : EReal :=
  ∑ k ∈ Finset.range n, term X W r c k

theorem psum_zero (X : Vis) (W : Wts) (r : Fin 8192) (c : Fin 4096) : psum X W r c 0 = 0 := by
  unfold psum; rw [Finset.range_zero, Finset.sum_empty]

/-- The first `n + l` products are the first `n` and then the next `l`. -/
theorem psum_add (X : Vis) (W : Wts) (r : Fin 8192) (c : Fin 4096) (n l : ℕ) :
    psum X W r c (n + l) = psum X W r c n + ∑ j ∈ Finset.range l, term X W r c (n + j) :=
  Finset.sum_range_add _ _ _

/-- One more run of 1024 products: the partial sum through contraction block `kb` is the partial sum before it plus the
    block's own 1024 products. -/
theorem psum_block (X : Vis) (W : Wts) (r : Fin 8192) (c : Fin 4096) (kb : ℕ) (hkb : kb < 4) :
    psum X W r c (1024 * (kb + 1)) = psum X W r c (1024 * kb)
      + ∑ l : Fin 1024, X (ix2 r ⟨1024 * kb + l.val, by have := l.isLt; omega⟩) * W (ix2 ⟨1024 * kb + l.val, by have := l.isLt; omega⟩ c) := by
  rw [Nat.mul_succ, psum_add, Finset.sum_range]
  refine congrArg _ (Finset.sum_congr rfl fun l _ => ?_)
  unfold term
  rw [dif_pos (by have := l.isLt; omega)]

/-- All 4096 products: the entry `(r, c)` of the matrix product. -/
theorem psum_full (X : Vis) (W : Wts) (r : Fin 8192) (c : Fin 4096) :
    psum X W r c 4096 = ∑ k : Fin 4096, X (ix2 r k) * W (ix2 k c) := by
  unfold psum
  rw [Finset.sum_range]
  refine Finset.sum_congr rfl fun k _ => ?_
  unfold term
  rw [dif_pos k.isLt]

/-- The hidden probabilities: the logistic function of the matrix product plus the bias, entry by entry. -/
def hid (X : Vis) (W : Wts) (B : Bias) : Hid :=
  fun i => Ideal.logistic (psum X W (i 0) (i 1) 4096 + B (ix1 (i 1)))

/-- The same at explicit coordinates, with the contraction as a sum over its 4096 indices. -/
theorem hid_apply (X : Vis) (W : Wts) (B : Bias) (r : Fin 8192) (c : Fin 4096) :
    hid X W B (ix2 r c) = Ideal.logistic ((∑ k : Fin 4096, X (ix2 r k) * W (ix2 k c)) + B (ix1 c)) := by
  show Ideal.logistic (psum X W r c 4096 + B (ix1 c)) = _
  rw [psum_full]

end Cert.Rbm

end
-- ==== Proof.Pieces.lean ====
/-
  What one grid step leaves behind, as values.

  The kernel keeps a running block of partial sums in a scratch buffer. A step whose contraction block is the first
  (case A) stores zeros there and then adds the product of its two input blocks; a middle step (case B) adds its product
  to what the step before left; the last step (case C) adds its product and then stores, into the output block, the
  logistic function of the sum plus the bias row. Each lemma below reads the stores a case performs back as the
  arithmetic term (`k0_pay1` the zero block, `k0_pay2 acc a b = acc + a · b`, `k0_pay3 acc bias = σ (acc + bias)`)
  of the blocks the step was given; they hold at every float instance.
-/
import proofs.«176703_j12292196401928_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A first step: the scratch ends at `0 + a · b` — the zero block is stored, read back, and the product added. -/
theorem scratch_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x1024 .bf16) (x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle step: the scratch ends at `acc + a · b` over what the step before left (`xs0`). -/
theorem scratch_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz]
  simp only [View.readAt_eq_ld, h7.read_unread, h3.read_unread, h4.read_unread, View.ld_unit_zero (S := S1024x1024) hz]

/-- A last step: the scratch likewise ends at `acc + a · b`. -/
theorem scratch_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i a3 h3 a4 h4 a5 h5 a6 h6 a7 h7 hc0 hc1 x0 x1 x2 xs0 = k0_pay2 xs0 x0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h7.read_unread, h3.read_unread, h4.read_unread, View.ld_unit_zero (S := S1024x1024) hz]

/-- A last step: the output block ends at `σ ((acc + a · b) + bias)`, the sum read back from the scratch. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz, View.readCov_unit_zero (S := S1024x1024) _ hz]
  simp only [View.readAt_eq_ld, h7.read_unread, h3.read_unread, h4.read_unread, h5.read_unread,
    View.ld_unit_zero (S := S1024x1024) hz, View.ld_unit_zero (S := S1x1024) hz]

end Cert.KernelIdeal.Pieces

end
-- ==== Proof.Payloads.lean ====
/-
  The three arithmetic terms of a grid step, read at an entry `(p, q)` of the 1024 × 1024 block over the extended reals:
  the zero block is `0`; the accumulation `acc + a · b` is `acc[p,q] + ∑ₗ a[p,l] · b[l,q]` over the 1024 contraction
  indices of the block (the matrix unit's product into a zero accumulator is that plain sum, and a change of float
  format is the identity, so the bf16 operands are the entries themselves); the epilogue is the logistic function of
  `acc[p,q] + bias[0,q]`, the bias row broadcast down the rows.
-/
import proofs.«176703_j12292196401928_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen
open Idealize.ShloMosaic Idealize.ShloMosaic.ValueIdx

/-- The zero block, at any entry. -/
theorem zero_apply (j : S1024x1024.Idx) : k0_pay1 (F := Ideal) j = 0 := by
  unfold k0_pay1
  simp only [shapeCast_self]
  exact Ideal.ofBits_zero_f32

/-- The block product's operand indices: at output entry `j` and contraction index `k` the left operand is read at
    row `j 0` and the right operand at column `j 1` (the other coordinate of each is the contraction index). -/
theorem lhs_row (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem rhs_col (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- One accumulation step at an entry: the accumulator there plus the block product's entry. -/
theorem acc_apply (acc : Vec Ideal S1024x1024 .f32) (a b : Vec Ideal S1024x1024 .bf16) (p q : Fin 1024) :
    k0_pay2 acc a b (ix2 p q) = acc (ix2 p q) + ∑ l : Fin 1024, a (ix2 p l) * b (ix2 l q) := by
  unfold k0_pay2
  simp only [shapeCast_self]
  show acc (ix2 p q) + FloatOps.matmul (F := Ideal) dot_S1024x1024_S1024x1024_S1024x1024_1_0_0_1_n_n none a b (constant (F := Ideal) S1024x1024 .f32 0x00000000#32) (ix2 p q) = _
  rw [Ideal.matmul_constant_zero_apply,
    ← Equiv.sum_comp (contrEquiv1 dot_S1024x1024_S1024x1024_S1024x1024_1_0_0_1_n_n 1024 rfl rfl).symm]
  refine congrArg (acc (ix2 p q) + ·) (Finset.sum_congr rfl fun l _ => ?_)
  have hl := contrEquiv1_symm_val dot_S1024x1024_S1024x1024_S1024x1024_1_0_0_1_n_n 1024 rfl rfl l
  have el : dot_S1024x1024_S1024x1024_S1024x1024_1_0_0_1_n_n.lhsIdx (ix2 p q)
      ((contrEquiv1 dot_S1024x1024_S1024x1024_S1024x1024_1_0_0_1_n_n 1024 rfl rfl).symm l) = ix2 p l :=
    funext fun ax => Fin.ext (by
      match ax with
      | ⟨0, _⟩ => exact lhs_row _ _
      | ⟨1, _⟩ => exact (dot_S1024x1024_S1024x1024_S1024x1024_1_0_0_1_n_n.lhsIdx_val_of_single rfl _ _).trans hl)
  have er : dot_S1024x1024_S1024x1024_S1024x1024_1_0_0_1_n_n.rhsIdx (ix2 p q)
      ((contrEquiv1 dot_S1024x1024_S1024x1024_S1024x1024_1_0_0_1_n_n 1024 rfl rfl).symm l) = ix2 l q :=
    funext fun ax => Fin.ext (by
      match ax with
      | ⟨0, _⟩ => exact (dot_S1024x1024_S1024x1024_S1024x1024_1_0_0_1_n_n.rhsIdx_val_of_single rfl _ _).trans hl
      | ⟨1, _⟩ => exact rhs_col _ _)
  rw [el, er]

/-- The epilogue at an entry: the logistic function of the sum plus the bias of the entry's column. -/
theorem logistic_apply (acc : Vec Ideal S1024x1024 .f32) (bias : Vec Ideal S1x1024 .f32) (p q : Fin 1024) :
    k0_pay3 acc bias (ix2 p q) = Ideal.logistic (acc (ix2 p q) + bias (ix2 (0 : Fin 1) q)) := by
  unfold k0_pay3
  simp only [shapeCast_self]
  show Ideal.logistic (acc (ix2 p q) + broadcastTo S1024x1024 bias broadcasts_S1x1024_S1024x1024 (ix2 p q)) = _
  rw [broadcastTo_1b_ab_apply]

end Cert.KernelIdeal.Payloads

end
-- ==== Proof.Blocks.lean ====
/-
  The blocks a grid step is given, as entries of the argument arrays.

  The grid has 8 × 4 × 4 points; point `t` = 16·i + 4·j + k works on row block `i = t / 16`, column block
  `j = t / 4 % 4` and contraction block `k = t % 4`. Its visible block is rows `1024·i …` and columns `1024·k …` of the
  visible batch, its weight block rows `1024·k …` and columns `1024·j …` of the weights, its bias block columns
  `1024·j …` of the bias row. Before the grid runs the arrays are only re-formatted (a change of float format is the
  identity over the extended reals) and the bias is viewed as a one-row matrix, so each block entry is an entry of an
  argument.
-/
import proofs.«176703_j12292196401928_1_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The block indices of the four windows at point `t`, decided over the 128 points. -/
theorem idx_facts : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The re-formatted visible batch the grid reads is the visible batch. -/
theorem V_vis (c : Dev nD) : (V m c main_v0 : S8192x4096.Idx → EReal) = m ((c : Thread nD τ).loc main_arg0) := by
  dsimp only [Gen.V, Gen.hostOps0]
  after_results
  rfl

/-- The re-formatted weights are the weights. -/
theorem V_wts (c : Dev nD) : (V m c main_v1 : S4096x4096.Idx → EReal) = m ((c : Thread nD τ).loc main_arg1) := by
  dsimp only [Gen.V, Gen.hostOps0]
  after_results
  rfl

/-- The bias row is the bias viewed as a 1 × 4096 matrix. -/
theorem V_bias (c : Dev nD) : (V m c main_v2 : S1x4096.Idx → EReal)
    = shapeCast S1x4096 (m ((c : Thread nD τ).loc main_arg2)) shapeCasts_S4096_S1x4096 := by
  dsimp only [Gen.V, Gen.hostOps0]
  after_results
  rfl

/-- The three input blocks of point `t`, at their literal shapes: the visible block, the weight block, the bias block. -/
abbrev visBlk (c : Dev nD) (t : Fin cfg0.N) : Vec Ideal S1024x1024 .bf16 := iblk m c 0 t
abbrev wtsBlk (c : Dev nD) (t : Fin cfg0.N) : Vec Ideal S1024x1024 .bf16 := iblk m c 1 t
abbrev biasBlk (c : Dev nD) (t : Fin cfg0.N) : Vec Ideal S1x1024 .f32 := iblk m c 2 t

/-- Entry `(p, l)` of the visible block at point `t` is entry `(1024·(t/16) + p, 1024·(t%4) + l)` of the batch. -/
theorem vis_apply (c : Dev nD) (t : Fin cfg0.N) (p l : Fin 1024) (r : Fin 8192) (k : Fin 4096)
    (hr : r.val = 1024 * (t.val / 16) + p.val) (hk : k.val = 1024 * (t.val % 4) + l.val) :
    visBlk m c t (ix2 p l) = m ((c : Thread nD τ).loc main_arg0) (ix2 r k) := by
  obtain ⟨e0, e1, -⟩ := idx_facts t
  unfold visBlk iblk
  rw [View.read_apply]
  show (V m c main_v0 : S8192x4096.Idx → EReal) _ = _
  rw [V_vis]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * l.val = k.val; rw [e1, hk]; omega

/-- Entry `(l, q)` of the weight block at point `t` is entry `(1024·(t%4) + l, 1024·(t/4%4) + q)` of the weights. -/
theorem wts_apply (c : Dev nD) (t : Fin cfg0.N) (l q : Fin 1024) (k : Fin 4096) (cc : Fin 4096)
    (hk : k.val = 1024 * (t.val % 4) + l.val) (hc : cc.val = 1024 * (t.val / 4 % 4) + q.val) :
    wtsBlk m c t (ix2 l q) = m ((c : Thread nD τ).loc main_arg1) (ix2 k cc) := by
  obtain ⟨-, -, e0, e1, -⟩ := idx_facts t
  unfold wtsBlk iblk
  rw [View.read_apply]
  show (V m c main_v1 : S4096x4096.Idx → EReal) _ = _
  rw [V_wts]
  congr 1
  funext a
  apply Fin.ext
  match a with
  | ⟨0, _⟩ => show win0_1.index t (0 : Fin 2) * 1024 + 1 * l.val = k.val; rw [e0, hk]; omega
  | ⟨1, _⟩ => show win0_1.index t (1 : Fin 2) * 1024 + 1 * q.val = cc.val; rw [e1, hc]; omega

/-- Entry `(0, q)` of the bias block at point `t` is entry `1024·(t/4%4) + q` of the bias. -/
theorem bias_apply (c : Dev nD) (t : Fin cfg0.N) (q : Fin 1024) (cc : Fin 4096)
    (hc : cc.val = 1024 * (t.val / 4 % 4) + q.val) :
    biasBlk m c t (ix2 (0 : Fin 1) q) = m ((c : Thread nD τ).loc main_arg2) (ix1 cc) := by
  obtain ⟨-, -, -, -, e0, e1, -⟩ := idx_facts t
  unfold biasBlk iblk
  rw [View.read_apply]
  show (V m c main_v2 : S1x4096.Idx → EReal) _ = _
  rw [V_bias]
  have hemb : ((cfg0.win 2).blk t).view.emb (ix2 (0 : Fin 1) q) = ix2 (0 : Fin 1) cc := by
    funext a
    apply Fin.ext
    match a with
    | ⟨0, _⟩ => show win0_2.index t (0 : Fin 2) * 1 + 1 * 0 = 0; rw [e0]
    | ⟨1, _⟩ => show win0_2.index t (1 : Fin 2) * 1024 + 1 * q.val = cc.val; rw [e1, hc]; omega
  rw [hemb]
  exact shapeCast_a_1a_apply _ shapeCasts_S4096_S1x4096 (0 : Fin 1) cc

end Cert.KernelIdeal.Blocks

end
-- ==== Proof.Hidden.lean ====
/-
  What the kernel's result array holds: the hidden probabilities of its three arguments.

  Fix a row block `i` and a column block `j`. The four grid points `16·i + 4·j + k`, `k = 0 … 3`, run one after the other
  and share the scratch block. By induction on the point, after point `t` the scratch entry `(p, q)` is the sum of the
  first `1024·(t % 4 + 1)` products of entry `(1024·i + p, 1024·j + q)` of `X · W`: the first point starts from the zero
  block, every later point adds its own run of 1024 products to what the point before left. At `k = 3` all 4096 products
  are in, and the point writes back the logistic function of that sum plus the bias — block `(i, j)` of the hidden
  probabilities. These 32 written blocks tile the 8192 × 4096 result, so the result array is the hidden probabilities.
-/
import proofs.«176703_j12292196401928_1_alg».proof.Proof.Spec
import proofs.«176703_j12292196401928_1_alg».proof.Proof.Pieces
import proofs.«176703_j12292196401928_1_alg».proof.Proof.Payloads
import proofs.«176703_j12292196401928_1_alg».proof.Proof.Blocks

noncomputable section

namespace Cert.KernelIdeal.Hidden

open Cert.KernelIdeal Cert.KernelIdeal.Gen
open Idealize.ShloMosaic Idealize.ShloMosaic.TcCoe Idealize.SL.Sem Idealize.ShloMosaic.ValueIdx
open Idealize.ShloMosaic.Pipeline (Dat)
open Cert.Rbm (psum hid)

variable (m : (ℓ : Loc nD τ sig) → Buf (Elt Ideal) ℓ) (ρ : Dev nD → PrngReg)

/-- The three arguments on core `c`: the visible batch, the weights, the bias. -/
abbrev X (c : Dev nD) : Cert.Rbm.Vis := m ((c : Thread nD τ).loc main_arg0)
abbrev W (c : Dev nD) : Cert.Rbm.Wts := m ((c : Thread nD τ).loc main_arg1)
abbrev B (c : Dev nD) : Cert.Rbm.Bias := m ((c : Thread nD τ).loc main_arg2)

/-! ## What each kind of point leaves, in the step's arithmetic terms -/

/-- A first point of a run leaves `0 + a · b` in the scratch. -/
theorem scratch_first (c : Dev nD) (t : Fin cfg0.N) (h0 : t.val % 4 = 0) (h1 : ¬t.val % 4 = 3) :
    (outsAt0 m c t.val t.isLt).2 = k0_pay2 (k0_pay1 (F := Ideal)) (Blocks.visBlk m c t) (Blocks.wtsBlk m c t) := by
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t)
    scM0_0 (Memref.isWhole_whole cc0_scratch0) ((hcond0_0 t).mpr h0) (fun h => h1 ((hcond0_1 t).mp h)) (iblk m c 0 t) (iblk m c 1 t) (iblk m c 2 t)

/-- A middle point leaves `acc + a · b` over what the point before left. -/
theorem scratch_middle (c : Dev nD) (t : Fin cfg0.N) (h0 : ¬t.val % 4 = 0) (h1 : ¬t.val % 4 = 3) :
    (outsAt0 m c t.val t.isLt).2
      = k0_pay2 ((outsAt0 m c (t.val - 1) (Nat.lt_of_le_of_lt (Nat.sub_le _ _) t.isLt)).2) (Blocks.visBlk m c t) (Blocks.wtsBlk m c t) := by
  rw [outsAt0_B m c t h0 h1]
  dsimp only
  exact Pieces.scratch_B (F := Ideal) c (grid0.coords t) (ms0_0 t) (hs0_0 t) (ms0_1 t) (hs0_1 t) (ms0_2 t) (hs0_2 t) (ms0_3 t) (hs0_3 t)
    scM0_0 (Memref.isWhole_whole cc0_scratch0) (fun h => h0 ((hcond0_0 t).mp h)) (fun h => h1 ((hcond0_1 t).mp h)) (iblk m c 0 t) (iblk m c 1 t)
    (iblk m c 2 t) ((outsAt0 m c (t.val - 1) (Nat.lt_of_le_of_lt (Nat.sub_le _ _) t.isLt)).2)

/-- A last point leaves the same in the scratch, -/
theorem scratch_last (c : Dev nD) (t : Fin cfg0.N) (h0 : ¬t.val % 4 = 0) (h1 : t.val % 4 = 3) :
    (outsAt0 m c t.val t.isLt).2
      = k0_pay2 ((outsAt0 m c (t.val - 1) (Nat.lt_of_le_of_lt (Nat.sub_le _ _) t.isLt)).2) (Blocks.visBlk m c t) (Blocks.wtsBlk m c t) := by
  rw [outsAt0_C m c t h0 h1]
  dsimp only
  exact Pieces.scratch_C (F := Ideal) c (grid0.coords t) (ms0_0 t) (hs0_0 t) (ms0_1 t) (hs0_1 t) (ms0_2 t) (hs0_2 t) (ms0_3 t) (hs0_3 t)
    scM0_0 (Memref.isWhole_whole cc0_scratch0) (fun h => h0 ((hcond0_0 t).mp h)) ((hcond0_1 t).mpr h1) (iblk m c 0 t) (iblk m c 1 t)
    (iblk m c 2 t) ((outsAt0 m c (t.val - 1) (Nat.lt_of_le_of_lt (Nat.sub_le _ _) t.isLt)).2)

/-- and in the output block the logistic function of that scratch plus the bias row. -/
theorem out_last (c : Dev nD) (t : Fin cfg0.N) (h0 : ¬t.val % 4 = 0) (h1 : t.val % 4 = 3) :
    (outsAt0 m c t.val t.isLt).1 = k0_pay3 ((outsAt0 m c t.val t.isLt).2) (Blocks.biasBlk m c t) := by
  rw [scratch_last m c t h0 h1, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t)
    scM0_0 (Memref.isWhole_whole cc0_scratch0) (fun h => h0 ((hcond0_0 t).mp h)) ((hcond0_1 t).mpr h1) (iblk m c 0 t) (iblk m c 1 t)
    (iblk m c 2 t) ((outsAt0 m c (t.val - 1) (Nat.lt_of_le_of_lt (Nat.sub_le _ _) t.isLt)).2)

/-! ## The running sum -/

/-- The product a point adds at entry `(p, q)` is its contraction block's run of 1024 products of the entry
    `(r, cc)` of `X · W` that `(p, q)` is in the point's row and column blocks. -/
theorem step_sum (c : Dev nD) (t : Fin cfg0.N) (p q : Fin 1024) (r : Fin 8192) (cc : Fin 4096)
    (hr : r.val = 1024 * (t.val / 16) + p.val) (hc : cc.val = 1024 * (t.val / 4 % 4) + q.val) :
    ∑ l : Fin 1024, Blocks.visBlk m c t (ix2 p l) * Blocks.wtsBlk m c t (ix2 l q)
      = ∑ l : Fin 1024, X m c (ix2 r ⟨1024 * (t.val % 4) + l.val, by have := l.isLt; omega⟩)
          * W m c (ix2 ⟨1024 * (t.val % 4) + l.val, by have := l.isLt; omega⟩ cc) :=
  Finset.sum_congr rfl fun l _ => by
    rw [Blocks.vis_apply m c t p l r ⟨1024 * (t.val % 4) + l.val, by have := l.isLt; omega⟩ hr rfl,
      Blocks.wts_apply m c t l q ⟨1024 * (t.val % 4) + l.val, by have := l.isLt; omega⟩ cc rfl hc]

/-- THE INVARIANT: after point `n` the scratch entry `(p, q)` is the sum of the first `1024·(n % 4 + 1)` products of the
    entry of `X · W` it accumulates — by induction on the point. -/
theorem scratch_eq (c : Dev nD) : ∀ (n : ℕ) (hn : n < cfg0.N) (p q : Fin 1024) (r : Fin 8192) (cc : Fin 4096),
    r.val = 1024 * (n / 16) + p.val → cc.val = 1024 * (n / 4 % 4) + q.val →
    (outsAt0 m c n hn).2 (ix2 p q) = psum (X m c) (W m c) r cc (1024 * (n % 4 + 1)) := by
  intro n
  induction n using Nat.strong_induction_on with
  | _ n ih =>
    intro hn p q r cc hr hc
    have hN : n < 128 := lt_of_lt_of_eq hn (show cfg0.N = 128 from N_0)
    by_cases h0 : n % 4 = 0
    · have z : psum (X m c) (W m c) r cc (1024 * (n % 4)) = 0 := by rw [h0]; exact Cert.Rbm.psum_zero _ _ _ _
      rw [scratch_first m c ⟨n, hn⟩ h0 (by dsimp only; omega), Payloads.acc_apply, Payloads.zero_apply, zero_add,
        step_sum m c ⟨n, hn⟩ p q r cc hr hc, Cert.Rbm.psum_block _ _ r cc (n % 4) (by omega), z, zero_add]
    · have e : (n - 1) % 4 + 1 = n % 4 := by omega
      have hprev := ih (n - 1) (by omega) (Nat.lt_of_le_of_lt (Nat.sub_le _ _) hn) p q r cc (by omega) (by omega)
      rw [e] at hprev
      by_cases h1 : n % 4 = 3
      · rw [scratch_last m c ⟨n, hn⟩ h0 h1, Payloads.acc_apply, hprev,
          step_sum m c ⟨n, hn⟩ p q r cc hr hc, Cert.Rbm.psum_block _ _ r cc (n % 4) (by omega)]
      · rw [scratch_middle m c ⟨n, hn⟩ h0 h1, Payloads.acc_apply, hprev,
          step_sum m c ⟨n, hn⟩ p q r cc hr hc, Cert.Rbm.psum_block _ _ r cc (n % 4) (by omega)]

/-! ## From the written blocks to the array -/

/-- Entry `(p, q)` of the output block at point `t` is entry `(1024·(t/16) + p, 1024·(t/4%4) + q)` of the result. -/
theorem out_emb (t : Fin cfg0.N) (p q : Fin 1024) (r : Fin 8192) (cc : Fin 4096)
    (hr : r.val = 1024 * (t.val / 16) + p.val) (hc : cc.val = 1024 * (t.val / 4 % 4) + q.val) :
    ((cfg0.win 3).blk t).view.emb (ix2 p q) = ix2 r cc := by
  obtain ⟨-, -, -, -, -, -, e0, e1⟩ := Blocks.idx_facts t
  funext a
  apply Fin.ext
  match a with
  | ⟨0, _⟩ => show win0_3.index t (0 : Fin 2) * 1024 + 1 * p.val = r.val; rw [e0, hr]; omega
  | ⟨1, _⟩ => show win0_3.index t (1 : Fin 2) * 1024 + 1 * q.val = cc.val; rw [e1, hc]; omega

/-- WHAT A WRITING POINT WRITES BACK is its block of the hidden probabilities. -/
theorem flushed_eq (c : Dev nD) (t : Fin cfg0.N) (hf : (cfg0.win 3).flush t = true) :
    (dats m 0 c).flushed 3 t = ((cfg0.win 3).blk t).view.read (Elt Ideal) (hid (X m c) (W m c) (B m c)) := by
  have h1 : t.val % 4 = 3 := (flush0_3 t).mp hf
  have h0 : ¬t.val % 4 = 0 := by omega
  have hN : t.val < 128 := lt_of_lt_of_eq t.isLt (show cfg0.N = 128 from N_0)
  rw [Value.flushed3]
  funext (j : S1024x1024.Idx)
  obtain ⟨p, q, rfl⟩ : ∃ (p q : Fin 1024), j = ix2 p q := ⟨j 0, j 1, eq_ix2 j⟩
  rw [View.read_apply]
  show (outsAt0 m c t.val t.isLt).1 (ix2 p q) = hid (X m c) (W m c) (B m c) (((cfg0.win 3).blk t).view.emb (ix2 p q))
  rw [out_emb t p q ⟨1024 * (t.val / 16) + p.val, by have := p.isLt; omega⟩ ⟨1024 * (t.val / 4 % 4) + q.val, by have := q.isLt; omega⟩ rfl rfl,
    Cert.Rbm.hid_apply, ← Cert.Rbm.psum_full, out_last m c t h0 h1, Payloads.logistic_apply,
    scratch_eq m c t.val t.isLt p q ⟨1024 * (t.val / 16) + p.val, by have := p.isLt; omega⟩ ⟨1024 * (t.val / 4 % 4) + q.val, by have := q.isLt; omega⟩ rfl rfl,
    Blocks.bias_apply m c t q ⟨1024 * (t.val / 4 % 4) + q.val, by have := q.isLt; omega⟩ rfl, h1]

/-- Every entry of the result is in the block some writing point writes: row block `i₀ / 1024`, column block
    `i₁ / 1024`, at the last contraction step. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := Blocks.idx_facts t
  refine ⟨t, (flush0_3 t).mpr (by omega), ?_⟩
  show i ∈ ((View.whole main_v3).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- So the result array ends holding the hidden probabilities. -/
theorem final (c : Dev nD) : (dats m 0 c).arrAt 3 cfg0.N = hid (X m c) (W m c) (B m c) :=
  (dats m 0 c).arrAt_eq_of_cover 3 (hid (X m c) (W m c) (B m c)) (flushed_eq m c) cover

/-- The run, read: every weakly fair execution ends with the result array at the hidden probabilities of the argument
    arrays, and the arguments unchanged. -/
theorem run : θ_run defs (onTc (τ := τ) (main (F := Ideal))) ⟨m, fun _ => 0, ρ⟩ fun r => ∀ c : Dev nD,
      r.2.mem ((c : Thread nD τ).loc main_v3) = hid (X m c) (W m c) (B m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hidden

end
-- ==== Proof.RefValue.lean ====
/-
  The reference, read at an index: entry `(r, c)` of its result is `1 / (1 + exp (-(∑ₖ X[r,k] · W[k,c] + B[c])))`,
  which is the logistic function of the matrix product plus the bias — the hidden probabilities `Cert.Rbm.hid`.
  The constant `1.0` denotes the real number one; the quotient and the exponential are the ones the logistic
  function is defined by, so the two expressions are one term once the constant is evaluated.
-/
import proofs.«176703_j12292196401928_1_alg».proof.Proof.Gen.ReferenceIdeal.Read
import proofs.«176703_j12292196401928_1_alg».proof.Proof.Spec
import Idealize.ShloMosaic.PureOps.IdealRules

noncomputable section

namespace Cert.Rbm.Ref

open Cert.ReferenceIdeal Cert.ReferenceIdeal.Gen Cert.ReferenceIdeal.Read
open Idealize.ShloMosaic Idealize.ShloMosaic.ValueIdx

/-- The word `0x3F800000` is the real number one. -/
theorem one_f32 : Ideal.ofBits .f32 0x3F800000#32 = 1 := IdealRules.sign_bit.ideal_onePat .f32

/-- The reference's last stage is the hidden probabilities of its three arguments. -/
theorem result_eq (X : Cert.Rbm.Vis) (W : Cert.Rbm.Wts) (B : Cert.Rbm.Bias) :
    val_main_v9 (F := Ideal) X W B = Cert.Rbm.hid X W B := by
  funext i
  obtain ⟨r, c, rfl⟩ : ∃ (r : Fin 8192) (c : Fin 4096), i = ix2 r c := ⟨i 0, i 1, eq_ix2 i⟩
  have el : ∀ k : Fin 4096, lidx_main_v0 (ix2 r c) k = ix2 r k := fun k => funext fun a => by
    match a with
    | ⟨0, _⟩ => rfl
    | ⟨1, _⟩ => rfl
  have er : ∀ k : Fin 4096, ridx_main_v0 (ix2 r c) k = ix2 k c := fun k => funext fun a => by
    match a with
    | ⟨0, _⟩ => rfl
    | ⟨1, _⟩ => rfl
  have eb : idx_main_v1 (idx_main_v2 (ix2 r c)) = ix1 c := funext fun a => by
    match a with
    | ⟨0, _⟩ => rfl
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply,
    Cert.Rbm.hid_apply]
  simp only [el, er, eb]
  show Ideal.div (Ideal.ofBits .f32 0x3F800000#32) (Ideal.ofBits .f32 0x3F800000#32 + Ideal.exp (-(_ + _))) = Ideal.logistic _
  rw [one_f32]
  rfl

end Cert.Rbm.Ref

end
-- ==== Proof.lean ====
/- The kernel computes the hidden probabilities of a restricted Boltzmann machine, `σ (X · W + b)` for a batch `X`
   of 8192 visible vectors of length 4096, weights `W` (4096 × 4096) and a hidden bias `b`, with `σ x = 1 / (1 + e⁻ˣ)`.
   It tiles the result into 1024 × 1024 blocks and, for each block, adds up the matrix product in four runs of 1024
   products, keeping the partial sums in a scratch block; at the fourth run it applies `σ` to the sum plus the bias.
   The reference takes the whole matrix product at once, adds the bias and spells `σ` as `1 / (1 + exp (-x))`.

   Over the extended reals the two are one function of the arguments, entry by entry (`Cert.Rbm.hid`, Proof/Spec.lean):
     * a change of float format is the identity, so the kernel's bf16 operands are the arguments' entries;
     * a sum of 4096 products taken as four consecutive runs of 1024 is the same sum: addition of extended reals is
       commutative and associative, and the regrouping uses nothing else — in particular not that the entries are finite;
     * the kernel's logistic function and the reference's quotient are the same expression once the reference's constant
       `1.0` is read as the number one.
   The kernel's side is Proof/Hidden.lean (the running sum, by induction over the grid points, over Proof/Pieces.lean,
   Proof/Payloads.lean and Proof/Blocks.lean), the reference's side Proof/RefValue.lean. The three frame claims are the
   generated runs; the idealization rewrote nothing, so `preserves` is trivial. -/
import proofs.«176703_j12292196401928_1_alg».proof.Defs
import proofs.«176703_j12292196401928_1_alg».proof.Proof.Gen.Kernel
import proofs.«176703_j12292196401928_1_alg».proof.Proof.Gen.Kernel.Skeleton
import proofs.«176703_j12292196401928_1_alg».proof.Proof.Gen.Kernel.Launch
import proofs.«176703_j12292196401928_1_alg».proof.Proof.Gen.Kernel.Points
import proofs.«176703_j12292196401928_1_alg».proof.Proof.Gen.Kernel.Frame
import proofs.«176703_j12292196401928_1_alg».proof.Proof.Gen.KernelIdeal
import proofs.«176703_j12292196401928_1_alg».proof.Proof.Gen.KernelIdeal.Skeleton
import proofs.«176703_j12292196401928_1_alg».proof.Proof.Gen.KernelIdeal.Launch
import proofs.«176703_j12292196401928_1_alg».proof.Proof.Gen.KernelIdeal.Points
import proofs.«176703_j12292196401928_1_alg».proof.Proof.Gen.KernelIdeal.Frame
import proofs.«176703_j12292196401928_1_alg».proof.Proof.Gen.ReferenceIdeal
import proofs.«176703_j12292196401928_1_alg».proof.Proof.Gen.KernelIdeal.Value
import proofs.«176703_j12292196401928_1_alg».proof.Proof.Gen.ReferenceIdeal.Run
import proofs.«176703_j12292196401928_1_alg».proof.Proof.Gen.ReferenceIdeal.Read
import proofs.«176703_j12292196401928_1_alg».proof.Proof.Gen.Pre_finite_inputs
import proofs.«176703_j12292196401928_1_alg».proof.Proof.Hidden
import proofs.«176703_j12292196401928_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From arguments that agree, the kernel's result array ends at the hidden probabilities (Proof/Hidden.lean) and so
    does the reference's (its run read at an index, Proof/RefValue.lean). -/
theorem algebraic : Cert.algebraic_KernelIdeal_ReferenceIdeal := by
  intro m ρ m' ρ' _ hagree
  refine ⟨fun c => Cert.Rbm.hid (Cert.KernelIdeal.Hidden.X m c) (Cert.KernelIdeal.Hidden.W m c) (Cert.KernelIdeal.Hidden.B m c),
    Cert.KernelIdeal.Hidden.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Rbm.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
